-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x200x3 : Shape := ⟨3, ![32, 200, 3]⟩
abbrev S2150400x5 : Shape := ⟨2, ![2150400, 5]⟩
abbrev S5 : Shape := ⟨1, ![5]⟩
abbrev S_ : Shape := ⟨0, ![]⟩

class Facts : Prop where
  bcast_S_S2150400x5 : S_.BroadcastsInDim S2150400x5 (![] : Fin 0 → Fin S2150400x5.rank)
  reducesTo_S2150400x5_S_d0_1 : S2150400x5.ReducesTo [0, 1] S_
  h_S_ : 0 < S_.numel
  bcast_S_S5 : S_.BroadcastsInDim S5 (![] : Fin 0 → Fin S5.rank)
  reducesTo_S5_S_d0 : S5.ReducesTo [0] S_

variable [Facts]

def fn {F : FTy → Type} [FloatOps F] (main_arg0 : IVec S32x200x3 32) (main_arg1 : FVec F S2150400x5 .f32) (main_arg2 : FVec F S5 .f32) : IVec S_ 1 :=
  let main_v0 : FVec F S2150400x5 .f32 := Host.absf main_arg1
  let main_cst : FVec F S_ .f32 := constant S_ .f32 0x7F800000#32
  let main_v1 : FVec F S2150400x5 .f32 := broadcastInDim S2150400x5 ![] bcast_S_S2150400x5 main_cst
  let main_v2 : IVec S2150400x5 1 := cmpf .olt main_v0 main_v1
  let main_c : IVec S_ 1 := constantI S_ 1 1#1
  let main_v3 : IVec S_ 1 := (fun x v => Host.reduce IntOp.andi x v reducesTo_S2150400x5_S_d0_1 h_S_) main_v2 main_c
  let main_v4 : FVec F S5 .f32 := Host.absf main_arg2
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  main_v8
-- ==== Kernel.lean ====
abbrev S32x200x3 : Shape := ⟨3, ![32, 200, 3]⟩
abbrev S2150400x5 : Shape := ⟨2, ![2150400, 5]⟩
abbrev S5 : Shape := ⟨1, ![5]⟩
abbrev S32x200x1 : Shape := ⟨3, ![32, 200, 1]⟩
abbrev S32x200 : Shape := ⟨2, ![32, 200]⟩
abbrev S_ : Shape := ⟨0, ![]⟩
abbrev S32x6144x350 : Shape := ⟨3, ![32, 6144, 350]⟩
abbrev S32x2150400 : Shape := ⟨2, ![32, 2150400]⟩
abbrev S5x2150400 : Shape := ⟨2, ![5, 2150400]⟩
abbrev S1x5 : Shape := ⟨2, ![1, 5]⟩
abbrev S32x5 : Shape := ⟨2, ![32, 5]⟩
abbrev S32x134400 : Shape := ⟨2, ![32, 134400]⟩
abbrev S5x134400 : Shape := ⟨2, ![5, 134400]⟩

abbrev nBuf : Space → Nat
  | .hbm => 44
  | .vmem => 7
  | .smem => 0
  | _ => 0

abbrev bufTy : (tb : Table) → Fin (tcTables nBuf tb) → BufTy
  | .hbm, ⟨0, _⟩ => ⟨S32x200x3, .i32⟩
  | .hbm, ⟨1, _⟩ => ⟨S2150400x5, .f32⟩
  | .hbm, ⟨2, _⟩ => ⟨S5, .f32⟩
  | .hbm, ⟨3, _⟩ => ⟨S32x200x1, .i32⟩
  | .hbm, ⟨4, _⟩ => ⟨S32x200, .i32⟩
  | .hbm, ⟨5, _⟩ => ⟨S32x200x1, .i32⟩
  | .hbm, ⟨6, _⟩ => ⟨S32x200, .i32⟩
  | .hbm, ⟨7, _⟩ => ⟨S32x200x1, .i32⟩
  | .hbm, ⟨8, _⟩ => ⟨S32x200, .i32⟩
  | .hbm, ⟨9, _⟩ => ⟨S_, .bf16⟩
  | .hbm, ⟨10, _⟩ => ⟨S32x6144x350, .bf16⟩
  | .hbm, ⟨11, _⟩ => ⟨S_, .i32⟩
  | .hbm, ⟨12, _⟩ => ⟨S32x200, .i32⟩
  | .hbm, ⟨13, _⟩ => ⟨S32x200, .i1⟩
  | .hbm, ⟨14, _⟩ => ⟨S_, .i32⟩
  | .hbm, ⟨15, _⟩ => ⟨S32x200, .i32⟩
  | .hbm, ⟨16, _⟩ => ⟨S32x200, .i32⟩
  | .hbm, ⟨17, _⟩ => ⟨S32x200, .i32⟩
  | .hbm, ⟨18, _⟩ => ⟨S_, .i32⟩
  | .hbm, ⟨19, _⟩ => ⟨S32x200, .i32⟩
  | .hbm, ⟨20, _⟩ => ⟨S32x200, .i1⟩
  | .hbm, ⟨21, _⟩ => ⟨S_, .i32⟩
  | .hbm, ⟨22, _⟩ => ⟨S32x200, .i32⟩
  | .hbm, ⟨23, _⟩ => ⟨S32x200, .i32⟩
  | .hbm, ⟨24, _⟩ => ⟨S32x200, .i32⟩
  | .hbm, ⟨25, _⟩ => ⟨S_, .i32⟩
  | .hbm, ⟨26, _⟩ => ⟨S32x200, .i32⟩
  | .hbm, ⟨27, _⟩ => ⟨S32x200, .i1⟩
  | .hbm, ⟨28, _⟩ => ⟨S_, .i32⟩
  | .hbm, ⟨29, _⟩ => ⟨S32x200, .i32⟩
  | .hbm, ⟨30, _⟩ => ⟨S32x200, .i32⟩
  | .hbm, ⟨31, _⟩ => ⟨S32x200, .i32⟩
  | .hbm, ⟨32, _⟩ => ⟨S32x200x1, .i32⟩
  | .hbm, ⟨33, _⟩ => ⟨S32x200x1, .i32⟩
  | .hbm, ⟨34, _⟩ => ⟨S32x200x1, .i32⟩
  | .hbm, ⟨35, _⟩ => ⟨S32x200x3, .i32⟩
  | .hbm, ⟨36, _⟩ => ⟨S_, .bf16⟩
  | .hbm, ⟨37, _⟩ => ⟨S32x200, .bf16⟩
  | .hbm, ⟨38, _⟩ => ⟨S32x6144x350, .bf16⟩
  | .hbm, ⟨39, _⟩ => ⟨S32x2150400, .bf16⟩
  | .hbm, ⟨40, _⟩ => ⟨S5x2150400, .f32⟩
  | .hbm, ⟨41, _⟩ => ⟨S5x2150400, .bf16⟩
  | .hbm, ⟨42, _⟩ => ⟨S1x5, .f32⟩
  | .hbm, ⟨43, _⟩ => ⟨S32x5, .f32⟩
  | .local _ .vmem, ⟨0, _⟩ => ⟨S32x134400, .bf16⟩
  | .local _ .vmem, ⟨1, _⟩ => ⟨S32x134400, .bf16⟩
  | .local _ .vmem, ⟨2, _⟩ => ⟨S5x134400, .bf16⟩
  | .local _ .vmem, ⟨3, _⟩ => ⟨S5x134400, .bf16⟩
  | .local _ .vmem, ⟨4, _⟩ => ⟨S1x5, .f32⟩
  | .local _ .vmem, ⟨5, _⟩ => ⟨S32x5, .f32⟩
  | .local _ .vmem, ⟨6, _⟩ => ⟨S32x5, .f32⟩
  | _, _ => ⟨S32x200x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x134400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x134400 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S32x200x3_S32x200x1_0_0_0 : S32x200x3.Slices ![0, 0, 0] S32x200x1
  shapeCasts_S32x200x1_S32x200 : S32x200x1.ShapeCasts S32x200
  slices_S32x200x3_S32x200x1_0_0_1 : S32x200x3.Slices ![0, 0, 1] S32x200x1
  slices_S32x200x3_S32x200x1_0_0_2 : S32x200x3.Slices ![0, 0, 2] S32x200x1
  bcast_S_S32x6144x350 : S_.BroadcastsInDim S32x6144x350 (![] : Fin 0 → Fin S32x6144x350.rank)
  bcast_S_S32x200 : S_.BroadcastsInDim S32x200 (![] : Fin 0 → Fin S32x200.rank)
  bcast_S32x200_S32x200x1_0_1 : S32x200.BroadcastsInDim S32x200x1 (![0, 1] : Fin 2 → Fin S32x200x1.rank)
  concatenates_S32x200x1_S32x200x1_S32x200x1_S32x200x3_d2 : Shape.Concatenates [S32x200x1, S32x200x1, S32x200x1] S32x200x3 2
  shapeCasts_S32x6144x350_S32x2150400 : S32x6144x350.ShapeCasts S32x2150400
  transposes_S2150400x5_S5x2150400_1_0 : S2150400x5.Transposes [1, 0] S5x2150400
  bitsLt_bf16_f32 : FTy.bits .bf16 < FTy.bits .f32
  shapeCasts_S5_S1x5 : S5.ShapeCasts S1x5
  inb_S32x5_S32x5_0_0 : ∀ a, (![0, 0] : Fin 2 → Nat) a + S32x5.size a ≤ S32x5.size a
  h_S32x5 : 0 < S32x5.numel
  shapeCasts_S32x5_S32x5 : S32x5.ShapeCasts S32x5
  inb_S32x134400_S32x134400_0_0 : ∀ a, (![0, 0] : Fin 2 → Nat) a + S32x134400.size a ≤ S32x134400.size a
  h_S32x134400 : 0 < S32x134400.numel
  shapeCasts_S32x134400_S32x134400 : S32x134400.ShapeCasts S32x134400
  inb_S5x134400_S5x134400_0_0 : ∀ a, (![0, 0] : Fin 2 → Nat) a + S5x134400.size a ≤ S5x134400.size a
  h_S5x134400 : 0 < S5x134400.numel
  shapeCasts_S5x134400_S5x134400 : S5x134400.ShapeCasts S5x134400
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S32x5 : S1x5.Broadcasts S32x5
  scatter_S32x6144x350_S32x200x3_S32x200_n_012_012_2_wf : ScatterDims.WF S32x6144x350 S32x200x3 S32x200 [] [0, 1, 2] [0, 1, 2] 2
  dot_S32x134400_S5x134400_S32x5_1_1_0_0_n_n_wf : DotDims.WF S32x134400 S5x134400 S32x5 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x134400.size a ≤ S32x2150400.size a
  hwx0_0 : ∀ i : grid0.Coords, EltTy.bits .bf16 = 32 ∨ (Rect.block (s := S32x2150400) S32x134400.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x134400.size a ≤ S5x2150400.size a
  hwx0_1 : ∀ i : grid0.Coords, EltTy.bits .bf16 = 32 ∨ (Rect.block (s := S5x2150400) S5x134400.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x5.size a ≤ S32x5.size a
  hwx0_3 : ∀ i : grid0.Coords, EltTy.bits .f32 = 32 ∨ (Rect.block (s := S32x5) S32x5.size (cc0_transform_3 i) (hinb0_3 i)).WholeWords (EltTy.packing .f32)

variable [Facts₀]

def scatter_S32x6144x350_S32x200x3_S32x200_n_012_012_2 : ScatterDims S32x6144x350 S32x200x3 S32x200 where
  updateWindowDims := []
  insertedWindowDims := [0, 1, 2]
  scatterDimsToOperandDims := [0, 1, 2]
  indexVectorDim := 2
  wf := scatter_S32x6144x350_S32x200x3_S32x200_n_012_012_2_wf
def dot_S32x134400_S5x134400_S32x5_1_1_0_0_n_n : DotDims S32x134400 S5x134400 S32x5 where
  lhsContracting := [1]
  rhsContracting := [1]
  lhsNonContracting := [0]
  rhsNonContracting := [0]
  lhsBatch := []
  rhsBatch := []
  wf := dot_S32x134400_S5x134400_S32x5_1_1_0_0_n_n_wf

abbrev win0_0 : Pipeline.Window sig grid0 :=
  Pipeline.Window.ofSpec (Memref.whole main_v28) S32x134400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5x134400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S32x5.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x200x3 : Shape := ⟨3, ![32, 200, 3]⟩
abbrev S2150400x5 : Shape := ⟨2, ![2150400, 5]⟩
abbrev S5 : Shape := ⟨1, ![5]⟩
abbrev S_ : Shape := ⟨0, ![]⟩
abbrev S32x6144x350 : Shape := ⟨3, ![32, 6144, 350]⟩
abbrev S32x200x1 : Shape := ⟨3, ![32, 200, 1]⟩
abbrev S32x200 : Shape := ⟨2, ![32, 200]⟩
abbrev S32x2150400 : Shape := ⟨2, ![32, 2150400]⟩
abbrev S32x5 : Shape := ⟨2, ![32, 5]⟩
abbrev S1x5 : Shape := ⟨2, ![1, 5]⟩

abbrev nBuf : Space → Nat
  | .hbm => 44
  | .vmem => 0
  | .smem => 0
  | _ => 0

abbrev bufTy : (tb : Table) → Fin (tcTables nBuf tb) → BufTy
  | .hbm, ⟨0, _⟩ => ⟨S32x200x3, .i32⟩
  | .hbm, ⟨1, _⟩ => ⟨S2150400x5, .f32⟩
  | .hbm, ⟨2, _⟩ => ⟨S5, .f32⟩
  | .hbm, ⟨3, _⟩ => ⟨S_, .f32⟩
  | .hbm, ⟨4, _⟩ => ⟨S32x6144x350, .f32⟩
  | .hbm, ⟨5, _⟩ => ⟨S32x200x1, .i32⟩
  | .hbm, ⟨6, _⟩ => ⟨S32x200, .i32⟩
  | .hbm, ⟨7, _⟩ => ⟨S32x200x1, .i32⟩
  | .hbm, ⟨8, _⟩ => ⟨S32x200, .i32⟩
  | .hbm, ⟨9, _⟩ => ⟨S32x200x1, .i32⟩
  | .hbm, ⟨10, _⟩ => ⟨S32x200, .i32⟩
  | .hbm, ⟨11, _⟩ => ⟨S_, .i32⟩
  | .hbm, ⟨12, _⟩ => ⟨S32x200, .i32⟩
  | .hbm, ⟨13, _⟩ => ⟨S32x200, .i1⟩
  | .hbm, ⟨14, _⟩ => ⟨S_, .i32⟩
  | .hbm, ⟨15, _⟩ => ⟨S32x200, .i32⟩
  | .hbm, ⟨16, _⟩ => ⟨S32x200, .i32⟩
  | .hbm, ⟨17, _⟩ => ⟨S32x200, .i32⟩
  | .hbm, ⟨18, _⟩ => ⟨S_, .i32⟩
  | .hbm, ⟨19, _⟩ => ⟨S32x200, .i32⟩
  | .hbm, ⟨20, _⟩ => ⟨S32x200, .i1⟩
  | .hbm, ⟨21, _⟩ => ⟨S_, .i32⟩
  | .hbm, ⟨22, _⟩ => ⟨S32x200, .i32⟩
  | .hbm, ⟨23, _⟩ => ⟨S32x200, .i32⟩
  | .hbm, ⟨24, _⟩ => ⟨S32x200, .i32⟩
  | .hbm, ⟨25, _⟩ => ⟨S_, .i32⟩
  | .hbm, ⟨26, _⟩ => ⟨S32x200, .i32⟩
  | .hbm, ⟨27, _⟩ => ⟨S32x200, .i1⟩
  | .hbm, ⟨28, _⟩ => ⟨S_, .i32⟩
  | .hbm, ⟨29, _⟩ => ⟨S32x200, .i32⟩
  | .hbm, ⟨30, _⟩ => ⟨S32x200, .i32⟩
  | .hbm, ⟨31, _⟩ => ⟨S32x200, .i32⟩
  | .hbm, ⟨32, _⟩ => ⟨S32x200x1, .i32⟩
  | .hbm, ⟨33, _⟩ => ⟨S32x200x1, .i32⟩
  | .hbm, ⟨34, _⟩ => ⟨S32x200x1, .i32⟩
  | .hbm, ⟨35, _⟩ => ⟨S32x200x3, .i32⟩
  | .hbm, ⟨36, _⟩ => ⟨S_, .f32⟩
  | .hbm, ⟨37, _⟩ => ⟨S32x200, .f32⟩
  | .hbm, ⟨38, _⟩ => ⟨S32x6144x350, .f32⟩
  | .hbm, ⟨39, _⟩ => ⟨S32x2150400, .f32⟩
  | .hbm, ⟨40, _⟩ => ⟨S32x5, .f32⟩
  | .hbm, ⟨41, _⟩ => ⟨S1x5, .f32⟩
  | .hbm, ⟨42, _⟩ => ⟨S32x5, .f32⟩
  | .hbm, ⟨43, _⟩ => ⟨S32x5, .f32⟩
  | _, _ => ⟨S32x200x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  bcast_S_S32x6144x350 : S_.BroadcastsInDim S32x6144x350 (![] : Fin 0 → Fin S32x6144x350.rank)
  slices_S32x200x3_S32x200x1_0_0_0 : S32x200x3.Slices ![0, 0, 0] S32x200x1
  shapeCasts_S32x200x1_S32x200 : S32x200x1.ShapeCasts S32x200
  slices_S32x200x3_S32x200x1_0_0_1 : S32x200x3.Slices ![0, 0, 1] S32x200x1
  slices_S32x200x3_S32x200x1_0_0_2 : S32x200x3.Slices ![0, 0, 2] S32x200x1
  bcast_S_S32x200 : S_.BroadcastsInDim S32x200 (![] : Fin 0 → Fin S32x200.rank)
  bcast_S32x200_S32x200x1_0_1 : S32x200.BroadcastsInDim S32x200x1 (![0, 1] : Fin 2 → Fin S32x200x1.rank)
  concatenates_S32x200x1_S32x200x1_S32x200x1_S32x200x3_d2 : Shape.Concatenates [S32x200x1, S32x200x1, S32x200x1] S32x200x3 2
  shapeCasts_S32x6144x350_S32x2150400 : S32x6144x350.ShapeCasts S32x2150400
  bcast_S5_S1x5_1 : S5.BroadcastsInDim S1x5 (![1] : Fin 1 → Fin S1x5.rank)
  bcast_S1x5_S32x5_0_1 : S1x5.BroadcastsInDim S32x5 (![0, 1] : Fin 2 → Fin S32x5.rank)
  scatter_S32x6144x350_S32x200x3_S32x200_n_012_012_2_wf : ScatterDims.WF S32x6144x350 S32x200x3 S32x200 [] [0, 1, 2] [0, 1, 2] 2
  dot_S32x2150400_S2150400x5_S32x5_1_0_0_1_n_n_wf : DotDims.WF S32x2150400 S2150400x5 S32x5 [1] [0] [0] [1] [] []

variable [Facts₀]

def scatter_S32x6144x350_S32x200x3_S32x200_n_012_012_2 : ScatterDims S32x6144x350 S32x200x3 S32x200 where
  updateWindowDims := []
  insertedWindowDims := [0, 1, 2]
  scatterDimsToOperandDims := [0, 1, 2]
  indexVectorDim := 2
  wf := scatter_S32x6144x350_S32x200x3_S32x200_n_012_012_2_wf
def dot_S32x2150400_S2150400x5_S32x5_1_0_0_1_n_n : DotDims S32x2150400 S2150400x5 S32x5 where
  lhsContracting := [1]
  rhsContracting := [0]
  lhsNonContracting := [0]
  rhsNonContracting := [1]
  lhsBatch := []
  rhsBatch := []
  wf := dot_S32x2150400_S2150400x5_S32x5_1_0_0_1_n_n_wf

class Facts : Prop extends Facts₀ where

variable [Facts]
-- ==== Proof.BitsKit.lean ====
/-
  The launch side of the frame of `Kernel`: @main is forty host operations (three index columns sliced out of the
  index tensor, each negative index wrapped once, the columns joined again, ones scattered into a zero array, that
  array flattened, the weights transposed and rounded, the bias laid as a row) followed by ONE pallas_call over a
  grid of sixteen points. Here: the buffers' contents when the region is entered (the fold `V` of the host
  operations over the launch memory), that no host operation writes an argument array, each window's block at a
  grid point, the two conditions the body branches on decided over the grid (the first point resets the accumulator,
  the last point stores the output), at which points the output window is idle, and the frame claim's post read off
  the post of a frame run.
-/
import proofs.«104946_j1460288881510_2_alg».proof.Proof.Gen.Kernel.Launch
import proofs.«104946_j1460288881510_2_alg».proof.Proof.Gen.Kernel.Skeleton
import proofs.«104946_j1460288881510_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the host operations folded over the launch memory. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- None of the three argument arrays is a window's array (the windows stage the flattened one-hot array, the rounded
    transposed weights, the bias row and the result), so each is among the other unscoped buffers, which a frame run
    leaves at their region-entry contents; and no host operation wrote them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's two branch conditions -/

/-- The first conditional's condition (the grid coordinate is 0), as the body computes it. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the grid coordinate is 15). -/
abbrev cond0_1 (i : grid0.Coords) : Prop := k0_cond2 i = 1#1
/-- It holds at the last point only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last point's conditional is not taken the body stores nothing into the output window: idle, and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S32x5 .f32 := (Memref.whole cc0_stg3_0 : Memref sig .tc .vmem S32x5 .f32).view
abbrev ms0_0 (t : Fin cfg0.N) : Memref sig .tc .vmem S32x134400 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x134400 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x5 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows and carried between points. -/
abbrev scM0_0 : Memref sig .tc .vmem S32x5 .f32 := Memref.whole cc0_scratch0
abbrev VS0_0 : View sig .tc .vmem S32x5 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.BitsRunA.lean ====
/-
  The kernel body run at the FIRST grid point (the accumulator is reset, then added to; the output window is left untouched): on whole staging memrefs — the three input windows' at their contents, the
  accumulator at what the point before left (at anything, at the first point) — the body runs to its end holding the
  inputs as they were and each buffer it stored into with its stores written; the list of stores is found by the run.
-/
import proofs.«104946_j1460288881510_2_alg».proof.Proof.BitsKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) :
    Σ' (L3 : List (View.Piece (Elt F) S32x5 .f32)), { LS0 : List (View.Piece (Elt F) S32x5 .f32) //
      ∀ (xi3 : Vec F S32x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.BitsRunB.lean ====
/-
  The kernel body run at a MIDDLE grid point (the accumulator is added to; the output window is left untouched): on whole staging memrefs — the three input windows' at their contents, the
  accumulator at what the point before left (at anything, at the first point) — the body runs to its end holding the
  inputs as they were and each buffer it stored into with its stores written; the list of stores is found by the run.
-/
import proofs.«104946_j1460288881510_2_alg».proof.Proof.BitsKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) :
    Σ' (L3 : List (View.Piece (Elt F) S32x5 .f32)), { LS0 : List (View.Piece (Elt F) S32x5 .f32) //
      ∀ (xi3 : Vec F S32x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Fr

end
-- ==== Proof.BitsRunC.lean ====
/-
  The kernel body run at the LAST grid point (the accumulator is added to, then stored with the bias row added into the output window): on whole staging memrefs — the three input windows' at their contents, the
  accumulator at what the point before left (at anything, at the first point) — the body runs to its end holding the
  inputs as they were and each buffer it stored into with its stores written; the list of stores is found by the run.
-/
import proofs.«104946_j1460288881510_2_alg».proof.Proof.BitsKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) :
    Σ' (L3 : List (View.Piece (Elt F) S32x5 .f32)), { LS0 : List (View.Piece (Elt F) S32x5 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Fr

end
-- ==== Proof.BitsFrame.lean ====
/-
  The frame of `Kernel`: a pallas_call over sixteen grid points whose body keeps a running [32,5] sum in a
  scratch accumulator — reset at the first point, the block product added at every point — and at the last point
  stores the accumulator plus the bias row into the output window, which is idle (and not written back) before.
  Here: what the accumulator and the output window hold after each point, by recursion on the point
  (`outsAt0`); the region invariant that carries the accumulator's contents from a point to the next (`PhiS`);
  the pipeline's proof data; the body obligation at a generic point, by the case the point is in; the frame run;
  and the frame claim.
-/
import proofs.«104946_j1460288881510_2_alg».proof.Proof.BitsRunA
import proofs.«104946_j1460288881510_2_alg».proof.Proof.BitsRunB
import proofs.«104946_j1460288881510_2_alg».proof.Proof.BitsRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The stores into the output window's buffer read back over junk (no store here: a placeholder nothing consults, the window being idle and not written back at these points). -/
def out0_A_3 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) : Vec F S32x5 .f32 :=
  VO0_3.read (Elt F) (VO0_3.writes (Elt F) VO0_3.junk (kernelRun0_A c i arg1 harg1 arg2 harg2 arg3 harg3 arg4 harg4 arg5 harg5 hc0 hc1 x0 x1 x2).1)

/-- The stores into the accumulator cover it. -/
theorem scover0_A_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) (y : S32x5.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S32x5.size (by sl_kernel_rfl) y

/-- What the body leaves in the accumulator: its stores read back over junk. -/
def sout0_A_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) : Vec F S32x5 .f32 :=
  VS0_0.read (Elt F) (VS0_0.writes (Elt F) VS0_0.junk (kernelRun0_A c i arg1 harg1 arg2 harg2 arg3 harg3 arg4 harg4 arg5 harg5 hc0 hc1 x0 x1 x2).2.1)

/-- The stores into the output window's buffer read back over junk (no store here: a placeholder nothing consults, the window being idle and not written back at these points). -/
def out0_B_3 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) : Vec F S32x5 .f32 :=
  VO0_3.read (Elt F) (VO0_3.writes (Elt F) VO0_3.junk (kernelRun0_B c i arg1 harg1 arg2 harg2 arg3 harg3 arg4 harg4 arg5 harg5 hc0 hc1 x0 x1 x2 xs0).1)

/-- The stores into the accumulator cover it. -/
theorem scover0_B_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) (y : S32x5.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S32x5.size (by sl_kernel_rfl) y

/-- What the body leaves in the accumulator: its stores read back over junk. -/
def sout0_B_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) : Vec F S32x5 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- At the last point the one store into the output window covers it. -/
theorem cover0_C_3 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) (y : S32x5.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S32x5.size (by sl_kernel_rfl) y

/-- What the last point leaves in the output window's buffer. -/
def out0_C_3 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) : Vec F S32x5 .f32 :=
  VO0_3.read (Elt F) (VO0_3.writes (Elt F) VO0_3.junk (kernelRun0_C c i arg1 harg1 arg2 harg2 arg3 harg3 arg4 harg4 arg5 harg5 hc0 hc1 x0 x1 x2 xs0).1)

/-- The stores into the accumulator cover it. -/
theorem scover0_C_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) (y : S32x5.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S32x5.size (by sl_kernel_rfl) y

/-- What the body leaves in the accumulator: its stores read back over junk. -/
def sout0_C_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) : Vec F S32x5 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the output window and the accumulator hold after each point -/

/-- After the body at position `n`: (the output window's buffer, the accumulator). The first point is the reset
    case; every later point runs over what the point before left in the accumulator, the last one storing the output. -/
def outsAt0 (c : Dev nD) : (n : ℕ) → n < cfg0.N → Vec F S32x5 .f32 × Vec F S32x5 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h1 : (n + 1) % 16 = 15 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (fun h => by have hN : n + 1 < 16 := lt_of_lt_of_eq hn (show cfg0.N = 16 from N_0); (try dsimp only at h); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (fun h => by have hN : n + 1 < 16 := lt_of_lt_of_eq hn (show cfg0.N = 16 from N_0); (try dsimp only at h); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (fun h => by have hN : n + 1 < 16 := lt_of_lt_of_eq hn (show cfg0.N = 16 from N_0); (try dsimp only at h); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (fun h => by have hN : n + 1 < 16 := lt_of_lt_of_eq hn (show cfg0.N = 16 from N_0); (try dsimp only at h); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At the first point. -/
theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (by exfalso; have hN : n + 1 < 16 := lt_of_lt_of_eq hn (show cfg0.N = 16 from N_0); (try dsimp only at h0); omega)

/-- At a middle point: over what the point before left. -/
theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region invariant before position `n`: before the first point the class's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's position says which case it is in; the
    invariant hands the body the accumulator at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  by_cases h0 : t.val % 16 = 0
  · have h1 : ¬t.val % 16 = 15 := by omega
    have hz : t.val = 0 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what
    the library computes from the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.IdealKit.lean ====
/-
  The launch side of the frame of `KernelIdeal`: @main is forty host operations (three index columns sliced out of the
  index tensor, each negative index wrapped once, the columns joined again, ones scattered into a zero array, that
  array flattened, the weights transposed and rounded, the bias laid as a row) followed by ONE pallas_call over a
  grid of sixteen points. Here: the buffers' contents when the region is entered (the fold `V` of the host
  operations over the launch memory), that no host operation writes an argument array, each window's block at a
  grid point, the two conditions the body branches on decided over the grid (the first point resets the accumulator,
  the last point stores the output), at which points the output window is idle, and the frame claim's post read off
  the post of a frame run.
-/
import proofs.«104946_j1460288881510_2_alg».proof.Proof.Gen.KernelIdeal.Launch
import proofs.«104946_j1460288881510_2_alg».proof.Proof.Gen.KernelIdeal.Skeleton
import proofs.«104946_j1460288881510_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the host operations folded over the launch memory. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- None of the three argument arrays is a window's array (the windows stage the flattened one-hot array, the rounded
    transposed weights, the bias row and the result), so each is among the other unscoped buffers, which a frame run
    leaves at their region-entry contents; and no host operation wrote them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's two branch conditions -/

/-- The first conditional's condition (the grid coordinate is 0), as the body computes it. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional's condition (the grid coordinate is 15). -/
abbrev cond0_1 (i : grid0.Coords) : Prop := k0_cond2 i = 1#1
/-- It holds at the last point only. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the last point's conditional is not taken the body stores nothing into the output window: idle, and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point the output window is live. -/
theorem liveAt0_3 : ∀ t : Fin cfg0.N, cond0_1 (grid0.coords t) → cfg0.idle 3 (grid0.coords t) = false := by decide +kernel

/-! ## The memrefs the body is called with -/

/-- One staging buffer of the output window, through which its contents are stated. -/
abbrev VO0_3 : View sig .tc .vmem S32x5 .f32 := (Memref.whole cc0_stg3_0 : Memref sig .tc .vmem S32x5 .f32).view
abbrev ms0_0 (t : Fin cfg0.N) : Memref sig .tc .vmem S32x134400 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5x134400 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x5 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows and carried between points. -/
abbrev scM0_0 : Memref sig .tc .vmem S32x5 .f32 := Memref.whole cc0_scratch0
abbrev VS0_0 : View sig .tc .vmem S32x5 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.IdealRunA.lean ====
/-
  The kernel body run at the FIRST grid point (the accumulator is reset, then added to; the output window is left untouched): on whole staging memrefs — the three input windows' at their contents, the
  accumulator at what the point before left (at anything, at the first point) — the body runs to its end holding the
  inputs as they were and each buffer it stored into with its stores written; the list of stores is found by the run.
-/
import proofs.«104946_j1460288881510_2_alg».proof.Proof.IdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) :
    Σ' (L3 : List (View.Piece (Elt F) S32x5 .f32)), { LS0 : List (View.Piece (Elt F) S32x5 .f32) //
      ∀ (xi3 : Vec F S32x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.IdealRunB.lean ====
/-
  The kernel body run at a MIDDLE grid point (the accumulator is added to; the output window is left untouched): on whole staging memrefs — the three input windows' at their contents, the
  accumulator at what the point before left (at anything, at the first point) — the body runs to its end holding the
  inputs as they were and each buffer it stored into with its stores written; the list of stores is found by the run.
-/
import proofs.«104946_j1460288881510_2_alg».proof.Proof.IdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) :
    Σ' (L3 : List (View.Piece (Elt F) S32x5 .f32)), { LS0 : List (View.Piece (Elt F) S32x5 .f32) //
      ∀ (xi3 : Vec F S32x5 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨[], ?_, fun xi3 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Fr

end
-- ==== Proof.IdealRunC.lean ====
/-
  The kernel body run at the LAST grid point (the accumulator is added to, then stored with the bias row added into the output window): on whole staging memrefs — the three input windows' at their contents, the
  accumulator at what the point before left (at anything, at the first point) — the body runs to its end holding the
  inputs as they were and each buffer it stored into with its stores written; the list of stores is found by the run.
-/
import proofs.«104946_j1460288881510_2_alg».proof.Proof.IdealKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) :
    Σ' (L3 : List (View.Piece (Elt F) S32x5 .f32)), { LS0 : List (View.Piece (Elt F) S32x5 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg1 harg1 arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Fr

end
-- ==== Proof.IdealFrame.lean ====
/-
  The frame of `KernelIdeal`: a pallas_call over sixteen grid points whose body keeps a running [32,5] sum in a
  scratch accumulator — reset at the first point, the block product added at every point — and at the last point
  stores the accumulator plus the bias row into the output window, which is idle (and not written back) before.
  Here: what the accumulator and the output window hold after each point, by recursion on the point
  (`outsAt0`); the region invariant that carries the accumulator's contents from a point to the next (`PhiS`);
  the pipeline's proof data; the body obligation at a generic point, by the case the point is in; the frame run;
  and the frame claim.
-/
import proofs.«104946_j1460288881510_2_alg».proof.Proof.IdealRunA
import proofs.«104946_j1460288881510_2_alg».proof.Proof.IdealRunB
import proofs.«104946_j1460288881510_2_alg».proof.Proof.IdealRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The stores into the output window's buffer read back over junk (no store here: a placeholder nothing consults, the window being idle and not written back at these points). -/
def out0_A_3 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) : Vec F S32x5 .f32 :=
  VO0_3.read (Elt F) (VO0_3.writes (Elt F) VO0_3.junk (kernelRun0_A c i arg1 harg1 arg2 harg2 arg3 harg3 arg4 harg4 arg5 harg5 hc0 hc1 x0 x1 x2).1)

/-- The stores into the accumulator cover it. -/
theorem scover0_A_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) (y : S32x5.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S32x5.size (by sl_kernel_rfl) y

/-- What the body leaves in the accumulator: its stores read back over junk. -/
def sout0_A_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) : Vec F S32x5 .f32 :=
  VS0_0.read (Elt F) (VS0_0.writes (Elt F) VS0_0.junk (kernelRun0_A c i arg1 harg1 arg2 harg2 arg3 harg3 arg4 harg4 arg5 harg5 hc0 hc1 x0 x1 x2).2.1)

/-- The stores into the output window's buffer read back over junk (no store here: a placeholder nothing consults, the window being idle and not written back at these points). -/
def out0_B_3 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) : Vec F S32x5 .f32 :=
  VO0_3.read (Elt F) (VO0_3.writes (Elt F) VO0_3.junk (kernelRun0_B c i arg1 harg1 arg2 harg2 arg3 harg3 arg4 harg4 arg5 harg5 hc0 hc1 x0 x1 x2 xs0).1)

/-- The stores into the accumulator cover it. -/
theorem scover0_B_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) (y : S32x5.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S32x5.size (by sl_kernel_rfl) y

/-- What the body leaves in the accumulator: its stores read back over junk. -/
def sout0_B_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) : Vec F S32x5 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- At the last point the one store into the output window covers it. -/
theorem cover0_C_3 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) (y : S32x5.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S32x5.size (by sl_kernel_rfl) y

/-- What the last point leaves in the output window's buffer. -/
def out0_C_3 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) : Vec F S32x5 .f32 :=
  VO0_3.read (Elt F) (VO0_3.writes (Elt F) VO0_3.junk (kernelRun0_C c i arg1 harg1 arg2 harg2 arg3 harg3 arg4 harg4 arg5 harg5 hc0 hc1 x0 x1 x2 xs0).1)

/-- The stores into the accumulator cover it. -/
theorem scover0_C_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) (y : S32x5.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S32x5.size (by sl_kernel_rfl) y

/-- What the body leaves in the accumulator: its stores read back over junk. -/
def sout0_C_0 (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) : Vec F S32x5 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the output window and the accumulator hold after each point -/

/-- After the body at position `n`: (the output window's buffer, the accumulator). The first point is the reset
    case; every later point runs over what the point before left in the accumulator, the last one storing the output. -/
def outsAt0 (c : Dev nD) : (n : ℕ) → n < cfg0.N → Vec F S32x5 .f32 × Vec F S32x5 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h1 : (n + 1) % 16 = 15 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (fun h => by have hN : n + 1 < 16 := lt_of_lt_of_eq hn (show cfg0.N = 16 from N_0); (try dsimp only at h); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (fun h => by have hN : n + 1 < 16 := lt_of_lt_of_eq hn (show cfg0.N = 16 from N_0); (try dsimp only at h); omega) ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (fun h => by have hN : n + 1 < 16 := lt_of_lt_of_eq hn (show cfg0.N = 16 from N_0); (try dsimp only at h); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => (fun h => by have hN : n + 1 < 16 := lt_of_lt_of_eq hn (show cfg0.N = 16 from N_0); (try dsimp only at h); omega) ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At the first point. -/
theorem outsAt0_A (c : Dev nD) (t : Fin cfg0.N) (h0 : t.val % 16 = 0) (h1 : ¬t.val % 16 = 15) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (by exfalso; have hN : n + 1 < 16 := lt_of_lt_of_eq hn (show cfg0.N = 16 from N_0); (try dsimp only at h0); omega)

/-- At a middle point: over what the point before left. -/
theorem outsAt0_B (c : Dev nD) (t : Fin cfg0.N) (h0 : ¬t.val % 16 = 0) (h1 : ¬t.val % 16 = 15) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: over what the point before left. -/
theorem outsAt0_C (c : Dev nD) (t : Fin cfg0.N) (h0 : ¬t.val % 16 = 0) (h1 : t.val % 16 = 15) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-- The region invariant before position `n`: before the first point the class's (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and the
    output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' buffers hold their blocks; the point's position says which case it is in; the
    invariant hands the body the accumulator at what the point before left (at anything at the first point) and takes
    it back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  by_cases h0 : t.val % 16 = 0
  · have h1 : ¬t.val % 16 = 15 := by omega
    have hz : t.val = 0 := by omega
    rw [Dat.leavesExact_idle (dats m 0 c) 3 t (idleAt0_3 t (fun h => h1 ((hcond0_1 t).mp h))) (noFlush0_3 t (fun h => h1 ((hcond0_1 t).mp h)))]
    rw [outsAt0_A m c t h0 h1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ ((hcond0_0 t).mpr h0) (fun h => h1 ((hcond0_1 t).mp h)) (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := by omega
    by_cases h1 : t.val % 16 = 15
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [outsAt0_C m c t h0 h1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dats m 0 c) 3 t (idleAt0_3 t (fun h => h1 ((hcond0_1 t).mp h))) (noFlush0_3 t (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of @main terminates, and every final state has every array of the pipeline at what
    the library computes from the proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.IdealPieces.lean ====
/-
  What the kernel body leaves, as values: at every point the accumulator ends at the point's payload — the accumulator
  it was handed (the freshly stored zero block at the first point) plus the product of the point's two input blocks —
  and at the last point the output window's buffer ends at that accumulator plus the bias row repeated down the rows.
  Each is the one covering store's payload, its loads reading the whole buffers.
-/
import proofs.«104946_j1460288881510_2_alg».proof.Proof.IdealFrame
import Idealize.ShloMosaic.Lib.Pipeline.Value

set_option maxRecDepth 16384

noncomputable section

namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A middle point: the accumulator plus the block product. -/
theorem sout_B (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : ¬cond0_1 i)
    (x0 : Vec F S32x134400 .bf16) (x1 : Vec F S5x134400 .bf16) (x2 : Vec F S1x5 .f32) (xs0 : Vec F S32x5 .f32) :
    sout0_B_0 c i arg1 harg1 arg2 harg2 arg3 harg3 arg4 harg4 arg5 harg5 hc0 hc1 x0 x1 x2 xs0 = k0_pay2 xs0 x0 x1 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg5.read_unread, harg1.read_unread, harg2.read_unread, harg3.read_unread, View.ld_unit_zero (S := S32x5) hz, View.ld_unit_zero (S := S32x134400) hz, View.ld_unit_zero (S := S5x134400) hz, View.ld_unit_zero (S := S1x5) hz]

/-- The first point: the zero block is stored, read back, and the block product added to it. -/
theorem sout_A (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : cond0_0 i) (hc1 : ¬cond0_1 i)
    (x0 : Vec F S32x134400 .bf16) (x1 : Vec F S5x134400 .bf16) (x2 : Vec F S1x5 .f32) :
    sout0_A_0 c i arg1 harg1 arg2 harg2 arg3 harg3 arg4 harg4 arg5 harg5 hc0 hc1 x0 x1 x2 = k0_pay2 (k0_pay1 (F := F)) x0 x1 := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S32x5) hz, View.readCov_unit_zero (S := S32x5) _ hz]
  simp only [View.readAt_eq_ld, harg5.read_unread, harg1.read_unread, harg2.read_unread, harg3.read_unread, View.ld_unit_zero (S := S32x5) hz, View.ld_unit_zero (S := S32x134400) hz, View.ld_unit_zero (S := S5x134400) hz, View.ld_unit_zero (S := S1x5) hz]

/-- The last point leaves the same in the accumulator, -/
theorem sout_C (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) :
    sout0_C_0 c i arg1 harg1 arg2 harg2 arg3 harg3 arg4 harg4 arg5 harg5 hc0 hc1 x0 x1 x2 xs0 = k0_pay2 xs0 x0 x1 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg5.read_unread, harg1.read_unread, harg2.read_unread, harg3.read_unread, View.ld_unit_zero (S := S32x5) hz, View.ld_unit_zero (S := S32x134400) hz, View.ld_unit_zero (S := S5x134400) hz, View.ld_unit_zero (S := S1x5) hz]

/-- and stores it, the bias row added, into the output window's buffer. -/
theorem out_C (c : Dev nD) (i : grid0.Coords) (arg1 : Memref sig .tc .vmem S32x134400 .bf16) (harg1 : arg1.IsWhole) (arg2 : Memref sig .tc .vmem S5x134400 .bf16) (harg2 : arg2.IsWhole) (arg3 : Memref sig .tc .vmem S1x5 .f32) (harg3 : arg3.IsWhole) (arg4 : Memref sig .tc .vmem S32x5 .f32) (harg4 : arg4.IsWhole) (arg5 : Memref sig .tc .vmem S32x5 .f32) (harg5 : arg5.IsWhole) (hc0 : ¬cond0_0 i) (hc1 : cond0_1 i)
    (x0 : Vec F S32x134400 .bf16) (x1 : Vec F S5x134400 .bf16) (x2 : Vec F S1x5 .f32) (xs0 : Vec F S32x5 .f32) :
    out0_C_3 c i arg1 harg1 arg2 harg2 arg3 harg3 arg4 harg4 arg5 harg5 hc0 hc1 x0 x1 x2 xs0 = k0_pay3 (k0_pay2 xs0 x0 x1) x2 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S32x5) _ hz]
  simp only [View.readAt_eq_ld, harg5.read_unread, harg1.read_unread, harg2.read_unread, harg3.read_unread, View.ld_unit_zero (S := S32x5) hz, View.ld_unit_zero (S := S32x134400) hz, View.ld_unit_zero (S := S5x134400) hz, View.ld_unit_zero (S := S1x5) hz]

/-! ## The running sum, point by point -/

/-- The accumulator after point `n`: the zero block plus the first block product, then plus each later one. -/
def acc (c : Dev nD) : (n : ℕ) → n < cfg0.N → Vec F S32x5 .f32
  | 0, h => k0_pay2 (k0_pay1 (F := F)) (iblk m c 0 ⟨0, h⟩) (iblk m c 1 ⟨0, h⟩)
  | n + 1, h => k0_pay2 (acc c n (Nat.lt_of_succ_lt h)) (iblk m c 0 ⟨n + 1, h⟩) (iblk m c 1 ⟨n + 1, h⟩)

/-- What the frame's recursion says the accumulator holds after point `n` is the running sum — by induction on the point. -/
theorem outsAt_acc (c : Dev nD) : ∀ (n : ℕ) (h : n < cfg0.N), (outsAt0 m c n h).2 = acc m c n h
  | 0, h => by
    rw [outsAt0_A m c ⟨0, h⟩ rfl (by dsimp only; omega)]
    dsimp only
    rw [sout_A]
    rfl
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      rw [sout_C]
      show k0_pay2 (outsAt0 m c n _).2 _ _ = k0_pay2 (acc m c n _) _ _
      rw [outsAt_acc c n]
    · rw [outsAt0_B m c ⟨n + 1, h⟩ h0 h1]
      dsimp only
      rw [sout_B]
      show k0_pay2 (outsAt0 m c n _).2 _ _ = k0_pay2 (acc m c n _) _ _
      rw [outsAt_acc c n]

theorem lt15 : 15 < cfg0.N := by rw [show cfg0.N = 16 from N_0]; decide

/-- The output window's buffer after the last point: the final running sum plus the bias row. -/
theorem outsAt_last (c : Dev nD) :
    (outsAt0 m c 15 lt15).1 = k0_pay3 (acc m c 15 lt15) (iblk m c 2 ⟨15, lt15⟩) := by
  rw [outsAt0_C m c ⟨15, lt15⟩ (by decide) (by decide)]
  dsimp only
  rw [out_C]
  show k0_pay3 (k0_pay2 (outsAt0 m c 14 _).2 _ _) _ = k0_pay3 (k0_pay2 (acc m c 14 _) _ _) _
  rw [outsAt_acc m c 14]

end Cert.KernelIdeal.Fr
end
-- ==== Proof.IdealFinal.lean ====
/-
  The result array after the run. The output window's one block is the whole [32,5] result array and is written back
  after the last grid point only, so the array ends holding what the last point left in the window's buffer: the
  final running sum plus the bias row. Also: where each input window's block at a grid point sits in its array —
  block `t` of the flattened one-hot array and of the transposed weights is columns `134400·t … 134400·t + 134399`,
  the bias row's one block is the row itself.
-/
import proofs.«104946_j1460288881510_2_alg».proof.Proof.IdealPieces
import Idealize.ShloMosaic.Lib.ValueIdx

set_option maxRecDepth 16384

noncomputable section

namespace Cert.KernelIdeal.Fr
open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The printed index maps, decided over the grid: the two long windows move along the columns with the point, the
    bias row and the result stay at block zero. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)

theorem col_lt (t : Fin cfg0.N) (j : Fin 134400) : 134400 * t.val + j.val < 2150400 := by
  have hN : t.val < 16 := lt_of_lt_of_eq t.isLt (show cfg0.N = 16 from N_0)
  have := j.isLt; omega

/-- Block `t` of the flattened one-hot array, at `(p, j)`: the array at `(p, 134400·t + j)`. -/
theorem iblk0_apply (c : Dev nD) (t : Fin cfg0.N) (p : Fin 32) (j : Fin 134400) :
    (iblk m c 0 t : Vec F S32x134400 .bf16) (ix2 p j) = V m c main_v28 (ix2 p ⟨134400 * t.val + j.val, col_lt t j⟩) := by
  obtain ⟨e0, e1, -, -, -, -⟩ := idx_facts t
  show V m c main_v28 (((cfg0.win 0).blk t).view.emb (ix2 p j)) = V m c main_v28 _
  refine congrArg (V m c main_v28) (funext fun a => Fin.ext ?_)
  match a with
  | ⟨0, _⟩ => show win0_0.index t (0 : Fin 2) * 32 + 1 * p.val = p.val; omega
  | ⟨1, _⟩ => show win0_0.index t (1 : Fin 2) * 134400 + 1 * j.val = 134400 * t.val + j.val; omega

/-- Block `t` of the transposed weights, at `(e, j)`: the array at `(e, 134400·t + j)`. -/
theorem iblk1_apply (c : Dev nD) (t : Fin cfg0.N) (e : Fin 5) (j : Fin 134400) :
    (iblk m c 1 t : Vec F S5x134400 .bf16) (ix2 e j) = V m c main_v30 (ix2 e ⟨134400 * t.val + j.val, col_lt t j⟩) := by
  obtain ⟨-, -, e0, e1, -, -⟩ := idx_facts t
  show V m c main_v30 (((cfg0.win 1).blk t).view.emb (ix2 e j)) = V m c main_v30 _
  refine congrArg (V m c main_v30) (funext fun a => Fin.ext ?_)
  match a with
  | ⟨0, _⟩ => show win0_1.index t (0 : Fin 2) * 5 + 1 * e.val = e.val; omega
  | ⟨1, _⟩ => show win0_1.index t (1 : Fin 2) * 134400 + 1 * j.val = 134400 * t.val + j.val; omega

/-- The bias row's block, at `(0, e)`: the row at `(0, e)`. -/
theorem iblk2_apply (c : Dev nD) (t : Fin cfg0.N) (z : Fin 1) (e : Fin 5) :
    (iblk m c 2 t : Vec F S1x5 .f32) (ix2 z e) = V m c main_v31 (ix2 z e) := by
  obtain ⟨-, -, -, -, e0, e1⟩ := idx_facts t
  show V m c main_v31 (((cfg0.win 2).blk t).view.emb (ix2 z e)) = V m c main_v31 _
  refine congrArg (V m c main_v31) (funext fun a => Fin.ext ?_)
  match a with
  | ⟨0, _⟩ => show win0_2.index t (0 : Fin 2) * 1 + 1 * z.val = z.val; omega
  | ⟨1, _⟩ => show win0_2.index t (1 : Fin 2) * 5 + 1 * e.val = e.val; omega

/-- The result array's final contents: the last running sum plus the bias row. -/
abbrev result (c : Dev nD) : Buf (Elt F) ((c : Thread nD τ).loc main_v32) :=
  k0_pay3 (acc m c 15 lt15) (iblk m c 2 ⟨15, lt15⟩)

/-- The one write-back, after the last point, writes it: the block at index (0, 0) of the [32,5] array is the array. -/
theorem flushed_eq (c : Dev nD) (t : Fin cfg0.N) (hf : (cfg0.win 3).flush t = true) :
    (dats m 0 c).flushed 3 t = ((cfg0.win 3).blk t).view.read (Elt F) (result m c) := by
  have hN : cfg0.N = 16 := N_0
  have h15 : t.val = 15 := by have := (flush0_3 t).mp hf; have := t.isLt; omega
  obtain rfl : t = ⟨15, lt15⟩ := Fin.ext h15
  show (cfg0.win 3).cut (grid0.coords ⟨15, lt15⟩) ((dats m 0 c).after 3 ⟨15, lt15⟩) = _
  rw [after0_3]
  show (cfg0.win 3).cut (grid0.coords ⟨15, lt15⟩) (outsAt0 m c 15 lt15).1 = _
  rw [outsAt_last]
  have hz' : (fun a => win0_3.index ⟨15, lt15⟩ a * main_v32.ty.shape.size a) = fun _ => 0 := funext fun a => by fin_cases a <;> decide
  exact (Memref.read_access_unit_zero (Elt F) main_v32 hz' (fun a => by rw [congrFun hz' a]; simp) (result m c)).symm

/-- So the result array ends holding it: the last point's block covers the array. -/
theorem final_o (c : Dev nD) : (dats m 0 c).arrAt 3 cfg0.N = result m c :=
  (dats m 0 c).arrAt_eq_of_cover 3 (result m c) (flushed_eq m c) fun i =>
    ⟨⟨15, lt15⟩, (flush0_3 ⟨15, lt15⟩).mpr rfl, by
      show i ∈ ((View.whole main_v32).slice (win0_3.rect ⟨15, lt15⟩)).set
      rw [View.set_slice_whole, Rect.mem_set_unit]
      intro a
      have h0 : (i 0 : Nat) < 32 := (i 0).isLt
      have h1 : (i 1 : Nat) < 5 := (i 1).isLt
      match a with
      | ⟨0, _⟩ => show win0_3.index ⟨15, lt15⟩ 0 * win0_3.size 0 ≤ (i 0 : Nat) ∧ (i 0 : Nat) < win0_3.index ⟨15, lt15⟩ 0 * win0_3.size 0 + win0_3.xsize (grid0.coords ⟨15, lt15⟩) 0
                  rw [show win0_3.index ⟨15, lt15⟩ 0 * win0_3.size 0 = 0 from by decide +kernel, show win0_3.xsize (grid0.coords ⟨15, lt15⟩) 0 = 32 from by decide +kernel]; omega
      | ⟨1, _⟩ => show win0_3.index ⟨15, lt15⟩ 1 * win0_3.size 1 ≤ (i 1 : Nat) ∧ (i 1 : Nat) < win0_3.index ⟨15, lt15⟩ 1 * win0_3.size 1 + win0_3.xsize (grid0.coords ⟨15, lt15⟩) 1
                  rw [show win0_3.index ⟨15, lt15⟩ 1 * win0_3.size 1 = 0 from by decide +kernel, show win0_3.xsize (grid0.coords ⟨15, lt15⟩) 1 = 5 from by decide +kernel]; omega⟩

/-- The run, read: the result array at the last running sum plus the bias row, the arguments unchanged. -/
theorem run : θ_run defs (onTc (τ := τ) (main (F := F))) ⟨m, fun _ => 0, ρ⟩ fun r => ∀ c : Dev nD,
      r.2.mem ((c : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final_o m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Fr
end
-- ==== Proof.LibDotRows.lean ====
/-
  A product of an `[m, k]` array by an `[n, k]` array over their SHARED LAST axis (rows against rows), read at an
  output index `(p, e)` on the extended reals as the plain sum `∑ⱼ A[p, j] · B[e, j]` over `j : Fin k` — for the
  vector unit's matrix product into a zero accumulator, whatever the two operands' float formats. The dimension
  numbers enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDotRows

open Idealize.ShloMosaic Idealize.ShloMosaic.ValueIdx

/-- The sum over the contraction index, re-indexed by the contracted axis's one coordinate. -/
theorem contract_sum_rows {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (A : FVec Ideal ⟨2, ![m, k]⟩ φ₁) (B : FVec Ideal ⟨2, ![n, k]⟩ φ₂) (p : Fin m) (e : Fin n) :
    ∑ q : D.contr.Idx, A (D.lhsIdx (ix2 p e) q) * B (D.rhsIdx (ix2 p e) q) = ∑ j : Fin k, A (ix2 p j) * B (ix2 e j) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 e j := funext fun a => Fin.ext (by
    match a with
    | ⟨0, _⟩ => exact hr0 _ _
    | ⟨1, _⟩ => exact (hr1 _ _).trans hk)
  rw [el, er]

/-- The vector unit's matrix product of rows against rows into the zero accumulator, at `(p, e)`. -/
theorem matmul_zero_rows_apply {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (A : FVec Ideal ⟨2, ![m, k]⟩ φ₁) (B : FVec Ideal ⟨2, ![n, k]⟩ φ₂)
    (p : Fin m) (e : Fin n) :
    FloatOps.matmul D prec A B (constant ⟨2, ![m, n]⟩ .f32 0x00000000#32) (ix2 p e) = ∑ j : Fin k, A (ix2 p j) * B (ix2 e j) :=
  (Ideal.matmul_constant_zero_apply D prec A B (ix2 p e)).trans (contract_sum_rows D hr hs hl0 hl1 hr0 hr1 A B p e)

end Cert.LibDotRows

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Consts.lean ====
/-
  The float constants the two programs spell, as the extended reals their patterns denote: the zero and the one of
  the one-hot array, in the kernel's 16-bit format and in the reference's 32-bit format.
-/
import Idealize.ShloMosaic.PureOps.Ideal
import Idealize.ShloMosaic.PureOps.Ideal.Laws

noncomputable section

namespace Cert.Consts

open Idealize.ShloMosaic

theorem zero_f32 : Ideal.ofBits .f32 0x00000000#32 = 0 := by
  simp [Ideal.ofBits, Ideal.ieee]

theorem zero_bf16 : Ideal.ofBits .bf16 0x0000#16 = 0 := by
  simp [Ideal.ofBits, Ideal.ieee]

theorem one_f32 : Ideal.ofBits .f32 0x3F800000#32 = 1 := by
  simp [Ideal.ofBits, Ideal.ieee, -EReal.coe_mul]; norm_num

theorem one_bf16 : Ideal.ofBits .bf16 0x3F80#16 = 1 := by
  simp [Ideal.ofBits, Ideal.ieee, -EReal.coe_mul]; norm_num

end Cert.Consts

end
-- ==== Proof.IdealValue.lean ====
/-
  The kernel's result array, index by index, on the extended reals.

  The host part before the pallas_call computes three arrays the windows stage: the flattened one-hot array `Z`
  (ones scattered into a zero array at the wrapped indices, then flattened to [32, 2150400] — the SAME chain of
  operations the reference applies, here in the 16-bit float format, whose zero and one denote the same extended
  reals), the weights transposed (a change of float format is the identity here), and the bias laid as one row.
  The pallas_call's sixteen points add up, in a [32,5] accumulator that starts at zero, the products of the
  sixteen column tiles:  acc₁₅[p,e] = 0 + ∑ₜ ∑ⱼ Z[p, 134400·t + j] · W[134400·t + j, e],  and the last point adds
  the bias row. A sum over the 2150400 columns is the sum over the sixteen tiles of the sum inside a tile, so the
  result is  (0 + ∑_f Z[p,f] · W[f,e]) + b[e].
-/
import proofs.«104946_j1460288881510_2_alg».proof.Proof.IdealFinal
import proofs.«104946_j1460288881510_2_alg».proof.Proof.LibDotRows
import proofs.«104946_j1460288881510_2_alg».proof.Proof.LibSums
import proofs.«104946_j1460288881510_2_alg».proof.Proof.Consts
import proofs.«104946_j1460288881510_2_alg».proof.Proof.Gen.ReferenceIdeal.Read
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## What the host operations hand the windows -/

/-- The weights window's array: the weights transposed and rounded to the 16-bit format. -/
theorem V_v30 (c : Dev nD) : (V m c main_v30 : S5x2150400.Idx → EReal)
    = truncf (F := Ideal) .bf16 (transpose S5x2150400 [1, 0] (m ((c : Thread nD τ).loc main_arg1) : FVec Ideal S2150400x5 .f32) Facts₀.transposes_S2150400x5_S5x2150400_1_0) Facts₀.bitsLt_bf16_f32 := by
  dsimp only [V, hostOps0]
  after_results_simp <;> rfl

/-- The bias window's array: the bias as one row. -/
theorem V_v31 (c : Dev nD) : (V m c main_v31 : S1x5.Idx → EReal)
    = shapeCast S1x5 (m ((c : Thread nD τ).loc main_arg2) : FVec Ideal S5 .f32) Facts₀.shapeCasts_S5_S1x5 := by
  dsimp only [V, hostOps0]
  after_results_simp <;> rfl

/-- Two scatters-then-flattenings of equal operands are equal. -/
theorem flat_congr {sx si su sf : Shape} (D D' : ScatterDims sx si su) (hD : D = D') (z z' : sx.Idx → EReal) (hz : z = z')
    (i i' : IVec si 32) (hi : i = i') (u u' : su.Idx → EReal) (hu : u = u') (h h' : sx.ShapeCasts sf) :
    shapeCast sf (Host.scatter D (fun _ b => b) z i u) h = shapeCast sf (Host.scatter D' (fun _ b => b) z' i' u') h' := by
  subst hD hz hi hu; rfl

set_option maxHeartbeats 1000000 in
/-- The one-hot window's array is the reference's flattened one-hot array of the same index tensor: the same
    operations on the indices, and a zero and a one that denote the same extended reals in both formats. -/
theorem V_v28 (c : Dev nD) : (V m c main_v28 : S32x2150400.Idx → EReal)
    = Cert.ReferenceIdeal.Read.val_main_v28 (F := Ideal) (m ((c : Thread nD τ).loc main_arg0)) := by
  dsimp only [V, hostOps0]
  after_results_simp
  unfold Cert.ReferenceIdeal.Read.val_main_v28 Cert.ReferenceIdeal.Read.val_main_v27 Cert.ReferenceIdeal.Read.val_main_v0 Cert.ReferenceIdeal.Read.val_main_v26 Cert.ReferenceIdeal.Read.val_main_cst Cert.ReferenceIdeal.Read.val_main_cst_5
  refine flat_congr _ _ rfl _ _ ?_ _ _ rfl _ _ ?_ _ _
  · funext i
    show Ideal.ofBits .bf16 0x0000#16 = Ideal.ofBits .f32 0x00000000#32
    rw [Cert.Consts.zero_bf16, Cert.Consts.zero_f32]
  · funext i
    show Ideal.ofBits .bf16 0x3F80#16 = Ideal.ofBits .f32 0x3F800000#32
    rw [Cert.Consts.one_bf16, Cert.Consts.one_f32]

end Cert.KernelIdeal.Val

end
-- ==== Proof.Spec.lean ====
/-
  The specification both programs meet, on the extended reals: a [32, 2150400] array `Z` (the flattened one-hot
  array) times a [2150400, 5] array `W`, plus a bias `b` of length 5:
      G Z W b [p, e] = (∑_f Z[p, f] · W[f, e]) + b[e].
-/
import Idealize.ShloMosaic.PureOps.Ideal
import Idealize.ShloMosaic.Lib.ValueIdx

noncomputable section

open scoped BigOperators

namespace Cert.Spec

open Idealize.ShloMosaic Idealize.ShloMosaic.ValueIdx

def G (Z : (⟨2, ![32, 2150400]⟩ : Shape).Idx → EReal) (W : (⟨2, ![2150400, 5]⟩ : Shape).Idx → EReal)
    (b : (⟨1, ![5]⟩ : Shape).Idx → EReal) : (⟨2, ![32, 5]⟩ : Shape).Idx → EReal :=
  fun i => (∑ f : Fin 2150400, Z (ix2 (i 0) f) * W (ix2 f (i 1))) + b (ix1 (i 1))

/-- The specification at an index written by its coordinates. -/
theorem G_apply (Z : (⟨2, ![32, 2150400]⟩ : Shape).Idx → EReal) (W : (⟨2, ![2150400, 5]⟩ : Shape).Idx → EReal)
    (b : (⟨1, ![5]⟩ : Shape).Idx → EReal) (p : Fin 32) (e : Fin 5) :
    G Z W b (ix2 p e) = (∑ f : Fin 2150400, Z (ix2 p f) * W (ix2 f e)) + b (ix1 e) := rfl

end Cert.Spec

end
-- ==== Proof.IdealSum.lean ====
/-
  The kernel's result array read at an index `(p, e)`: the accumulator after the last point is zero plus, tile by
  tile, the sums over a tile's 134400 columns of `Z[p, col] · W[col, e]`; the sixteen tiles' columns are all 2150400
  columns; and the last point adds the bias. So the array is the one function `G` below of the flattened one-hot
  array, the weights and the bias — the function the reference computes too.
-/
import proofs.«104946_j1460288881510_2_alg».proof.Proof.IdealValue
import proofs.«104946_j1460288881510_2_alg».proof.Proof.Spec

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-! ## The running sum's defining equations, at any float instance -/

section
variable {F : FTy → Type} [FloatOps F] (m : (ℓ : Loc nD τ sig) → Buf (Elt F) ℓ)

theorem acc_zero (c : Dev nD) (h : 0 < cfg0.N) :
    acc m c 0 h = k0_pay2 (k0_pay1 (F := F)) (iblk m c 0 ⟨0, h⟩) (iblk m c 1 ⟨0, h⟩) := rfl

theorem acc_succ (c : Dev nD) (n : ℕ) (h : n + 1 < cfg0.N) :
    acc m c (n + 1) h = k0_pay2 (acc m c n (Nat.lt_of_succ_lt h)) (iblk m c 0 ⟨n + 1, h⟩) (iblk m c 1 ⟨n + 1, h⟩) := rfl

theorem result_def (c : Dev nD) : result m c = k0_pay3 (acc m c 15 lt15) (iblk m c 2 ⟨15, lt15⟩) := rfl

end

/-! ## The body's three payloads at an index -/

theorem lhs0 (i : S32x5.Idx) (q : dot_S32x134400_S5x134400_S32x5_1_1_0_0_n_n.contr.Idx) : (dot_S32x134400_S5x134400_S32x5_1_1_0_0_n_n.lhsIdx i q 0).val = (i 0).val := by
  unfold DotDims.lhsIdx
  rw [dif_neg (show ¬(0 : Fin S32x134400.rank) ∈ dot_S32x134400_S5x134400_S32x5_1_1_0_0_n_n.lhsBatch by decide), dif_pos (show (0 : Fin S32x134400.rank) ∈ dot_S32x134400_S5x134400_S32x5_1_1_0_0_n_n.lhsNonContracting by decide)]
  rfl
theorem lhs1 (i : S32x5.Idx) (q : dot_S32x134400_S5x134400_S32x5_1_1_0_0_n_n.contr.Idx) : (dot_S32x134400_S5x134400_S32x5_1_1_0_0_n_n.lhsIdx i q 1).val = (q ⟨0, by decide⟩).val :=
  dot_S32x134400_S5x134400_S32x5_1_1_0_0_n_n.lhsIdx_val_of_single rfl i q
theorem rhs0 (i : S32x5.Idx) (q : dot_S32x134400_S5x134400_S32x5_1_1_0_0_n_n.contr.Idx) : (dot_S32x134400_S5x134400_S32x5_1_1_0_0_n_n.rhsIdx i q 0).val = (i 1).val := by
  unfold DotDims.rhsIdx
  rw [dif_neg (show ¬(0 : Fin S5x134400.rank) ∈ dot_S32x134400_S5x134400_S32x5_1_1_0_0_n_n.rhsBatch by decide), dif_pos (show (0 : Fin S5x134400.rank) ∈ dot_S32x134400_S5x134400_S32x5_1_1_0_0_n_n.rhsNonContracting by decide)]
  rfl
theorem rhs1 (i : S32x5.Idx) (q : dot_S32x134400_S5x134400_S32x5_1_1_0_0_n_n.contr.Idx) : (dot_S32x134400_S5x134400_S32x5_1_1_0_0_n_n.rhsIdx i q 1).val = (q ⟨0, by decide⟩).val :=
  dot_S32x134400_S5x134400_S32x5_1_1_0_0_n_n.rhsIdx_val_of_single rfl i q

/-- The reset stores zero. -/
theorem pay1_apply (p : Fin 32) (e : Fin 5) : k0_pay1 (F := Ideal) (ix2 p e) = 0 := by
  unfold k0_pay1
  simp only [shapeCast_self]
  exact Cert.Consts.zero_f32

/-- Every point adds, to the accumulator, the rows of its one-hot block against the rows of its weights block. -/
theorem pay2_apply (v3 : FVec Ideal S32x5 .f32) (v4 : FVec Ideal S32x134400 .bf16) (v6 : FVec Ideal S5x134400 .bf16)
    (p : Fin 32) (e : Fin 5) :
    k0_pay2 (F := Ideal) v3 v4 v6 (ix2 p e) = v3 (ix2 p e) + ∑ j : Fin 134400, v4 (ix2 p j) * v6 (ix2 e j) := by
  unfold k0_pay2
  simp only [shapeCast_self]
  exact congrArg (v3 (ix2 p e) + ·) (Cert.LibDotRows.matmul_zero_rows_apply dot_S32x134400_S5x134400_S32x5_1_1_0_0_n_n rfl rfl lhs0 lhs1 rhs0 rhs1 none v4 v6 p e)

/-- The last point adds the bias row, repeated down the rows. -/
theorem pay3_apply (v16 : FVec Ideal S32x5 .f32) (v17 : FVec Ideal S1x5 .f32) (p : Fin 32) (e : Fin 5) :
    k0_pay3 (F := Ideal) v16 v17 (ix2 p e) = v16 (ix2 p e) + v17 (ix2 (0 : Fin 1) e) := by
  unfold k0_pay3
  simp only [shapeCast_self]
  exact congrArg (v16 (ix2 p e) + ·) (broadcastTo_1b_ab_apply v17 Facts₀.broadcasts_S1x5_S32x5 p e)

/-! ## The accumulator, tile by tile -/

/-- The product the sums run over, at column `f` (zero past the last column). -/
def term (Z : (⟨2, ![32, 2150400]⟩ : Shape).Idx → EReal) (W : (⟨2, ![2150400, 5]⟩ : Shape).Idx → EReal) (p : Fin 32) (e : Fin 5)
    (f : ℕ) : EReal :=
  if h : f < 2150400 then Z (ix2 p ⟨f, h⟩) * W (ix2 ⟨f, h⟩ e) else 0

variable (m : (ℓ : Loc nD τ sig) → Buf (Elt Ideal) ℓ)

/-- The reference's flattened one-hot array of the kernel's index tensor. -/
abbrev Zr (c : Dev nD) : (⟨2, ![32, 2150400]⟩ : Shape).Idx → EReal :=
  Cert.ReferenceIdeal.Read.val_main_v28 (F := Ideal) (m ((c : Thread nD τ).loc main_arg0))
abbrev Wa (c : Dev nD) : (⟨2, ![2150400, 5]⟩ : Shape).Idx → EReal := m ((c : Thread nD τ).loc main_arg1)
abbrev ba (c : Dev nD) : (⟨1, ![5]⟩ : Shape).Idx → EReal := m ((c : Thread nD τ).loc main_arg2)

/-- The block product at point `n` is the sum of the terms of tile `n`'s columns. -/
theorem blk_prod (c : Dev nD) (p : Fin 32) (e : Fin 5) (n : ℕ) (h : n < cfg0.N)
    (v4 : FVec Ideal S32x134400 .bf16) (v6 : FVec Ideal S5x134400 .bf16)
    (h4 : v4 = iblk m c 0 ⟨n, h⟩) (h6 : v6 = iblk m c 1 ⟨n, h⟩) :
    ∑ j : Fin 134400, v4 (ix2 p j) * v6 (ix2 e j)
      = ∑ j : Fin 134400, term (Zr m c) (Wa m c) p e (134400 * n + j.val) := by
  subst h4 h6
  refine Finset.sum_congr rfl fun j _ => ?_
  have hc : 134400 * n + j.val < 2150400 := col_lt ⟨n, h⟩ j
  rw [iblk0_apply m c ⟨n, h⟩ p j, iblk1_apply m c ⟨n, h⟩ e j, V_v28, V_v30, truncf_apply, transpose_ix2_apply]
  unfold term
  rw [dif_pos hc]

/-- The accumulator after point `n`: zero plus the tiles' sums up to `n`. -/
theorem acc_apply (c : Dev nD) (p : Fin 32) (e : Fin 5) : ∀ (n : ℕ) (h : n < cfg0.N),
    acc m c n h (ix2 p e) = 0 + ∑ k ∈ Finset.range (n + 1), ∑ j : Fin 134400, term (Zr m c) (Wa m c) p e (134400 * k + j.val)
  | 0, h => by
    rw [acc_zero (F := Ideal) m c h, pay2_apply, pay1_apply, blk_prod m c p e 0 h _ _ rfl rfl, Finset.sum_range_one]
  | n + 1, h => by
    rw [acc_succ (F := Ideal) m c n h, pay2_apply, acc_apply c p e n, blk_prod m c p e (n + 1) h _ _ rfl rfl, Finset.sum_range_succ _ (n + 1), add_assoc]

/-- Sixteen tiles of 134400 columns are the 2150400 columns. -/
theorem tiles_sum (g : ℕ → EReal) :
    ∑ k ∈ Finset.range 16, ∑ j : Fin 134400, g (134400 * k + j.val) = ∑ f : Fin 2150400, g f.val := by
  rw [Cert.LibSums.sum_by_tiles (T := 16) (R := 134400) (by norm_num) (fun f : Fin 2150400 => g f.val)]
  exact (Fin.sum_univ_eq_sum_range (fun k => ∑ j : Fin 134400, g (134400 * k + j.val)) 16).symm

/-- The result array is `G` of the one-hot array, the weights and the bias. -/
theorem result_eq (c : Dev nD) : (result m c : (⟨2, ![32, 5]⟩ : Shape).Idx → EReal) = Cert.Spec.G (Zr m c) (Wa m c) (ba m c) := by
  funext i
  obtain ⟨p, e, rfl⟩ : ∃ (p : Fin 32) (e : Fin 5), i = ix2 p e := ⟨i 0, i 1, eq_ix2 i⟩
  rw [result_def (F := Ideal) m c, pay3_apply, acc_apply m c p e 15 lt15, iblk2_apply, V_v31, shapeCast_a_1a_apply, tiles_sum]
  have hterm : ∀ f : Fin 2150400, term (Zr m c) (Wa m c) p e f.val = Zr m c (ix2 p f) * Wa m c (ix2 f e) := fun f => by
    unfold term
    rw [dif_pos f.isLt]
  have hsum : (0 : EReal) + ∑ f : Fin 2150400, term (Zr m c) (Wa m c) p e f.val
      = ∑ f : Fin 2150400, Zr m c (ix2 p f) * Wa m c (ix2 f e) :=
    (zero_add _).trans (Finset.sum_congr rfl fun f _ => hterm f)
  rw [hsum, Cert.Spec.G_apply]

end Cert.KernelIdeal.Val

end
-- ==== Proof.RefSide.lean ====
/-
  The reference's result, index by index: its matrix product reads, at `(p, e)`, the sum over the 2150400 columns
  of the flattened one-hot array at `(p, f)` times the weights at `(f, e)`, and the bias, laid as a row and repeated
  down the rows, adds `b[e]`: the specification `G` of the reference's own flattened one-hot array.
-/
import proofs.«104946_j1460288881510_2_alg».proof.Proof.Gen.ReferenceIdeal.Read
import proofs.«104946_j1460288881510_2_alg».proof.Proof.Spec

noncomputable section

open scoped BigOperators

namespace Cert.ReferenceIdeal.RefValue

open Cert.ReferenceIdeal Cert.ReferenceIdeal.Read Idealize.ShloMosaic Idealize.ShloMosaic.ValueIdx

theorem ref_eq (x0 : (⟨S32x200x3, .i32⟩ : BufTy).Contents (Elt Ideal)) (x1 : (⟨S2150400x5, .f32⟩ : BufTy).Contents (Elt Ideal))
    (x2 : (⟨S5, .f32⟩ : BufTy).Contents (Elt Ideal)) :
    val_main_v32 (F := Ideal) x0 x1 x2 = Cert.Spec.G (val_main_v28 (F := Ideal) x0) x1 x2 := by
  funext i
  obtain ⟨p, e, rfl⟩ : ∃ (p : Fin 32) (e : Fin 5), i = ix2 p e := ⟨i 0, i 1, eq_ix2 i⟩
  have hl : ∀ k : Fin 2150400, lidx_main_v29 (ix2 p e) k = ix2 p k := fun k => funext fun a => Fin.ext (by
    match a with
    | ⟨0, _⟩ => rfl
    | ⟨1, _⟩ => rfl)
  have hr : ∀ k : Fin 2150400, ridx_main_v29 (ix2 p e) k = ix2 k e := fun k => funext fun a => Fin.ext (by
    match a with
    | ⟨0, _⟩ => rfl
    | ⟨1, _⟩ => rfl)
  have hb : idx_main_v30 (idx_main_v31 (ix2 p e)) = ix1 e := funext fun a => Fin.ext (by
    match a with
    | ⟨0, _⟩ => rfl)
  rw [val_main_v32_apply, val_main_v29_apply, val_main_v31_apply, val_main_v30_apply, hb]
  simp only [hl, hr]
  rfl

end Cert.ReferenceIdeal.RefValue

end
-- ==== Proof.lean ====
/-
  A one-hot encoding followed by a dense layer. Both programs scatter ones into a zero array [32, 6144, 350] at the
  index triples of the index tensor (each negative index wrapped once), flatten it to Z : [32, 2150400], and compute
  Z · W + b for W : [2150400, 5] and b : [5].

  The reference does it with one matrix product on the host. The kernel builds Z in a 16-bit float format, transposes
  and rounds the weights, and runs ONE pallas_call over sixteen grid points: point t multiplies columns
  134400·t … 134400·t + 134399 of Z against the same columns of the transposed weights and adds the [32,5] product
  into a scratch accumulator that the first point resets to zero; the last point stores the accumulator plus the bias
  row into the output window, which is written back once.

  On the extended reals the two results are equal, index by index:
      ((0 + ∑ₜ ∑ⱼ Z[p, 134400·t + j] · W[134400·t + j, e])) + b[e]  =  (∑_f Z[p, f] · W[f, e]) + b[e],
  because a change of float format is the identity, the 16-bit and the 32-bit zero and one denote 0 and 1, the
  index arithmetic is the same operations in both programs, and a sum over 16·134400 columns is the sum over the
  sixteen tiles of the sums inside a tile. Only commutativity and associativity of the sum are used, so the
  precondition (finite inputs) is never opened.

  The three frame claims: each kernel program's frame is proved from the launch theorem for a pipeline whose body
  carries a scratch accumulator between grid points (the body is run symbolically in its three cases: first point,
  middle points, last point); the reference's frame is its run with the result dropped. The idealization rewrote
  nothing, so the preservation claim is trivial.
-/
import proofs.«104946_j1460288881510_2_alg».proof.Defs
import proofs.«104946_j1460288881510_2_alg».proof.Proof.Gen.Kernel
import proofs.«104946_j1460288881510_2_alg».proof.Proof.Gen.KernelIdeal
import proofs.«104946_j1460288881510_2_alg».proof.Proof.Gen.ReferenceIdeal
import proofs.«104946_j1460288881510_2_alg».proof.Proof.Gen.Pre_finite_inputs
import proofs.«104946_j1460288881510_2_alg».proof.Proof.BitsFrame
import proofs.«104946_j1460288881510_2_alg».proof.Proof.IdealSum
import proofs.«104946_j1460288881510_2_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both result arrays end at the specification `G` of the flattened one-hot array of the (agreeing) index tensor,
    the weights and the bias. -/
theorem algebraic : Cert.algebraic_KernelIdeal_ReferenceIdeal := by
  intro m ρ m' ρ' _ hagree
  refine ⟨fun c => Cert.KernelIdeal.Fr.result m c, Cert.KernelIdeal.Fr.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v32_eq, Cert.ReferenceIdeal.RefValue.ref_eq,
    (hagree c).1, (hagree c).2.1, (hagree c).2.2]
  exact (Cert.KernelIdeal.Val.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
